-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x8192 : Shape := ⟨2, ![128, 8192]⟩
abbrev S8192x8192 : Shape := ⟨2, ![8192, 8192]⟩
abbrev S512x8192 : Shape := ⟨2, ![512, 8192]⟩
abbrev S16x1 : Shape := ⟨2, ![16, 1]⟩
abbrev S1 : Shape := ⟨1, ![1]⟩
abbrev S_ : Shape := ⟨0, ![]⟩

class Facts : Prop where
  bcast_S_S128x8192 : S_.BroadcastsInDim S128x8192 (![] : Fin 0 → Fin S128x8192.rank)
  reducesTo_S128x8192_S_d0_1 : S128x8192.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S512x8192 : S_.BroadcastsInDim S512x8192 (![] : Fin 0 → Fin S512x8192.rank)
  reducesTo_S512x8192_S_d0_1 : S512x8192.ReducesTo [0, 1] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S16x1 1) : IVec S_ 1 :=
  let main_c_5 : IVec S_ 1 := constantI S_ 1 1#1
  let main_v17 : IVec S_ 1 := (fun x v => Host.reduce IntOp.andi x v reducesTo_S16x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S128x8192 .f32) (main_arg1 : FVec F S8192x8192 .f32) (main_arg2 : FVec F S512x8192 .f32) (main_arg3 : FVec F S16x1 .f32) (main_arg4 : FVec F S1 .f32) : IVec S_ 1 :=
  let main_v0 : FVec F S128x8192 .f32 := Host.absf main_arg0
  let main_cst : FVec F S_ .f32 := constant S_ .f32 0x7F800000#32
  let main_v1 : FVec F S128x8192 .f32 := broadcastInDim S128x8192 ![] bcast_S_S128x8192 main_cst
  let main_v2 : IVec S128x8192 1 := cmpf .olt main_v0 main_v1
  let main_c : IVec S_ 1 := constantI S_ 1 1#1
  let main_v3 : IVec S_ 1 := (fun x v => Host.reduce IntOp.andi x v reducesTo_S128x8192_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S512x8192 .f32 := Host.absf main_arg2
  let main_cst_2 : FVec F S_ .f32 := constant S_ .f32 0x7F800000#32
  let main_v10 : FVec F S512x8192 .f32 := broadcastInDim S512x8192 ![] bcast_S_S512x8192 main_cst_2
  let main_v11 : IVec S512x8192 1 := cmpf .olt main_v9 main_v10
  let main_c_3 : IVec S_ 1 := constantI S_ 1 1#1
  let main_v12 : IVec S_ 1 := (fun x v => Host.reduce IntOp.andi x v reducesTo_S512x8192_S_d0_1 h_S_) main_v11 main_c_3
  let main_v13 : IVec S_ 1 := andi main_v8 main_v12
  let main_v14 : FVec F S16x1 .f32 := Host.absf main_arg3
  let main_cst_4 : FVec F S_ .f32 := constant S_ .f32 0x7F800000#32
  let main_v15 : FVec F S16x1 .f32 := broadcastInDim S16x1 ![] bcast_S_S16x1 main_cst_4
  let main_v16 : IVec S16x1 1 := cmpf .olt main_v14 main_v15
  fn_part1 (F := F) main_arg4 main_v13 main_v16
-- ==== Kernel.lean ====
abbrev S128x8192 : Shape := ⟨2, ![128, 8192]⟩
abbrev S8192x8192 : Shape := ⟨2, ![8192, 8192]⟩
abbrev S512x8192 : Shape := ⟨2, ![512, 8192]⟩
abbrev S16x1 : Shape := ⟨2, ![16, 1]⟩
abbrev S1 : Shape := ⟨1, ![1]⟩
abbrev S8192x512 : Shape := ⟨2, ![8192, 512]⟩
abbrev S128x512 : Shape := ⟨2, ![128, 512]⟩
abbrev S16 : Shape := ⟨1, ![16]⟩
abbrev S128x512x16 : Shape := ⟨3, ![128, 512, 16]⟩
abbrev S1x16 : Shape := ⟨2, ![1, 16]⟩
abbrev S512x16 : Shape := ⟨2, ![512, 16]⟩
abbrev S8192 : Shape := ⟨1, ![8192]⟩
abbrev S_ : Shape := ⟨0, ![]⟩
abbrev S1x8192 : Shape := ⟨2, ![1, 8192]⟩
abbrev S128x2048 : Shape := ⟨2, ![128, 2048]⟩
abbrev S1024x2048 : Shape := ⟨2, ![1024, 2048]⟩
abbrev S128x1024 : Shape := ⟨2, ![128, 1024]⟩
abbrev S1x1024 : Shape := ⟨2, ![1, 1024]⟩

abbrev nBuf : Space → Nat
  | .hbm => 20
  | .vmem => 11
  | .smem => 0
  | _ => 0

abbrev bufTy : (tb : Table) → Fin (tcTables nBuf tb) → BufTy
  | .hbm, ⟨0, _⟩ => ⟨S128x8192, .f32⟩
  | .hbm, ⟨1, _⟩ => ⟨S8192x8192, .f32⟩
  | .hbm, ⟨2, _⟩ => ⟨S512x8192, .f32⟩
  | .hbm, ⟨3, _⟩ => ⟨S16x1, .f32⟩
  | .hbm, ⟨4, _⟩ => ⟨S1, .f32⟩
  | .hbm, ⟨5, _⟩ => ⟨S8192x512, .f32⟩
  | .hbm, ⟨6, _⟩ => ⟨S128x512, .f32⟩
  | .hbm, ⟨7, _⟩ => ⟨S16, .f32⟩
  | .hbm, ⟨8, _⟩ => ⟨S128x512x16, .f32⟩
  | .hbm, ⟨9, _⟩ => ⟨S128x8192, .f32⟩
  | .hbm, ⟨10, _⟩ => ⟨S1x16, .f32⟩
  | .hbm, ⟨11, _⟩ => ⟨S512x16, .f32⟩
  | .hbm, ⟨12, _⟩ => ⟨S8192, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S8192, .f32⟩
  | .hbm, ⟨17, _⟩ => ⟨S8192, .f32⟩
  | .hbm, ⟨18, _⟩ => ⟨S1x8192, .f32⟩
  | .hbm, ⟨19, _⟩ => ⟨S128x8192, .f32⟩
  | .local _ .vmem, ⟨0, _⟩ => ⟨S128x2048, .f32⟩
  | .local _ .vmem, ⟨1, _⟩ => ⟨S128x2048, .f32⟩
  | .local _ .vmem, ⟨2, _⟩ => ⟨S1024x2048, .f32⟩
  | .local _ .vmem, ⟨3, _⟩ => ⟨S1024x2048, .f32⟩
  | .local _ .vmem, ⟨4, _⟩ => ⟨S128x1024, .f32⟩
  | .local _ .vmem, ⟨5, _⟩ => ⟨S128x1024, .f32⟩
  | .local _ .vmem, ⟨6, _⟩ => ⟨S1x1024, .f32⟩
  | .local _ .vmem, ⟨7, _⟩ => ⟨S1x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | _, _ => ⟨S128x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  transposes_S512x8192_S8192x512_1_0 : S512x8192.Transposes [1, 0] S8192x512
  shapeCasts_S16x1_S16 : S16x1.ShapeCasts S16
  bcast_S128x512_S128x512x16_0_1 : S128x512.BroadcastsInDim S128x512x16 (![0, 1] : Fin 2 → Fin S128x512x16.rank)
  shapeCasts_S128x512x16_S128x8192 : S128x512x16.ShapeCasts S128x8192
  shapeCasts_S16_S1x16 : S16.ShapeCasts S1x16
  bcast_S1x16_S512x16_0_1 : S1x16.BroadcastsInDim S512x16 (![0, 1] : Fin 2 → Fin S512x16.rank)
  shapeCasts_S512x16_S8192 : S512x16.ShapeCasts S8192
  shapeCasts_S1_S_ : S1.ShapeCasts S_
  bcast_S_S8192 : S_.BroadcastsInDim S8192 (![] : Fin 0 → Fin S8192.rank)
  shapeCasts_S8192_S1x8192 : S8192.ShapeCasts S1x8192
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S128x2048_S128x2048_0_0 : ∀ a, (![0, 0] : Fin 2 → Nat) a + S128x2048.size a ≤ S128x2048.size a
  h_S128x2048 : 0 < S128x2048.numel
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  dot_S128x8192_S8192x512_S128x512_1_0_0_1_n_n_wf : DotDims.WF S128x8192 S8192x512 S128x512 [1] [0] [0] [1] [] []
  dot_S128x2048_S1024x2048_S128x1024_1_1_0_0_n_n_wf : DotDims.WF S128x2048 S1024x2048 S128x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S128x8192.size a
  hwx0_0 : ∀ i : grid0.Coords, EltTy.bits .f32 = 32 ∨ (Rect.block (s := S128x8192) S128x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S8192x8192.size a
  hwx0_1 : ∀ i : grid0.Coords, EltTy.bits .f32 = 32 ∨ (Rect.block (s := S8192x8192) S1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S128x8192.size a
  hwx0_2 : ∀ i : grid0.Coords, EltTy.bits .f32 = 32 ∨ (Rect.block (s := S128x8192) S128x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x1024.size a ≤ S128x8192.size a
  hwx0_4 : ∀ i : grid0.Coords, EltTy.bits .f32 = 32 ∨ (Rect.block (s := S128x8192) S128x1024.size (cc0_transform_4 i) (hinb0_4 i)).WholeWords (EltTy.packing .f32)

variable [Facts₀]

def dot_S128x8192_S8192x512_S128x512_1_0_0_1_n_n : DotDims S128x8192 S8192x512 S128x512 where
  lhsContracting := [1]
  rhsContracting := [0]
  lhsNonContracting := [0]
  rhsNonContracting := [1]
  lhsBatch := []
  rhsBatch := []
  wf := dot_S128x8192_S8192x512_S128x512_1_0_0_1_n_n_wf
def dot_S128x2048_S1024x2048_S128x1024_1_1_0_0_n_n : DotDims S128x2048 S1024x2048 S128x1024 where
  lhsContracting := [1]
  rhsContracting := [1]
  lhsNonContracting := [0]
  rhsNonContracting := [0]
  lhsBatch := []
  rhsBatch := []
  wf := dot_S128x2048_S1024x2048_S128x1024_1_1_0_0_n_n_wf

abbrev win0_0 : Pipeline.Window sig grid0 :=
  Pipeline.Window.ofSpec (Memref.whole main_arg0) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v13) S128x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S128x8192 : Shape := ⟨2, ![128, 8192]⟩
abbrev S8192x8192 : Shape := ⟨2, ![8192, 8192]⟩
abbrev S512x8192 : Shape := ⟨2, ![512, 8192]⟩
abbrev S16x1 : Shape := ⟨2, ![16, 1]⟩
abbrev S1 : Shape := ⟨1, ![1]⟩
abbrev S512x1x8192x1 : Shape := ⟨4, ![512, 1, 8192, 1]⟩
abbrev S1x16x1x1 : Shape := ⟨4, ![1, 16, 1, 1]⟩
abbrev S512x16x8192x1 : Shape := ⟨4, ![512, 16, 8192, 1]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S128x8192, .f32⟩
  | .hbm, ⟨1, _⟩ => ⟨S8192x8192, .f32⟩
  | .hbm, ⟨2, _⟩ => ⟨S512x8192, .f32⟩
  | .hbm, ⟨3, _⟩ => ⟨S16x1, .f32⟩
  | .hbm, ⟨4, _⟩ => ⟨S1, .f32⟩
  | .hbm, ⟨5, _⟩ => ⟨S512x1x8192x1, .f32⟩
  | .hbm, ⟨6, _⟩ => ⟨S1x16x1x1, .f32⟩
  | .hbm, ⟨7, _⟩ => ⟨S512x16x8192x1, .f32⟩
  | .hbm, ⟨8, _⟩ => ⟨S512x16x8192x1, .f32⟩
  | .hbm, ⟨9, _⟩ => ⟨S512x16x8192x1, .f32⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S128x8192, .f32⟩
  | _, _ => ⟨S128x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  bcast_S512x8192_S512x1x8192x1_0_2 : S512x8192.BroadcastsInDim S512x1x8192x1 (![0, 2] : Fin 2 → Fin S512x1x8192x1.rank)
  bcast_S16x1_S1x16x1x1_1_3 : S16x1.BroadcastsInDim S1x16x1x1 (![1, 3] : Fin 2 → Fin S1x16x1x1.rank)
  bcast_S512x1x8192x1_S512x16x8192x1_0_1_2_3 : S512x1x8192x1.BroadcastsInDim S512x16x8192x1 (![0, 1, 2, 3] : Fin 4 → Fin S512x16x8192x1.rank)
  bcast_S1x16x1x1_S512x16x8192x1_0_1_2_3 : S1x16x1x1.BroadcastsInDim S512x16x8192x1 (![0, 1, 2, 3] : Fin 4 → Fin S512x16x8192x1.rank)
  shapeCasts_S512x16x8192x1_S8192x8192 : S512x16x8192x1.ShapeCasts S8192x8192
  bcast_S_S8192x8192 : S_.BroadcastsInDim S8192x8192 (![] : Fin 0 → Fin S8192x8192.rank)
  shapeCasts_S1_S_ : S1.ShapeCasts S_
  transposes_S8192x8192_S8192x8192_1_0 : S8192x8192.Transposes [1, 0] S8192x8192
  dot_S128x8192_S8192x8192_S128x8192_1_0_0_1_n_n_wf : DotDims.WF S128x8192 S8192x8192 S128x8192 [1] [0] [0] [1] [] []

variable [Facts₀]

def dot_S128x8192_S8192x8192_S128x8192_1_0_0_1_n_n : DotDims S128x8192 S8192x8192 S128x8192 where
  lhsContracting := [1]
  rhsContracting := [0]
  lhsNonContracting := [0]
  rhsNonContracting := [1]
  lhsBatch := []
  rhsBatch := []
  wf := dot_S128x8192_S8192x8192_S128x8192_1_0_0_1_n_n_wf

class Facts : Prop extends Facts₀ where

variable [Facts]
-- ==== Proof.Pieces.lean ====
/-
  What one run of the kernel body leaves behind, as values of what it loaded.

  The body has three control cases along the contraction axis of the grid.  In every case it loads the
  x block and the w block whole, and stores the accumulator whole:
  * first step: the accumulator is reset, read back, and the step's product added — it ends at
    step (x block) (w block) zero;
  * middle steps: it ends at step (x block) (w block) acc, for acc what the step before left;
  * last step: the same, and the output block is stored as close (y block) (b block) of that new accumulator.
  Each store covers its whole buffer, so what a buffer holds afterwards is the last store's value, and a
  load after a covering store reads that store's value.
-/
import proofs.«171268_j70806830841898_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

/-- Every load and store of the body starts at the origin of its buffer. -/
theorem hz : (![0, 0] : Fin 2 → Nat) = fun _ => 0 := funext fun a => by fin_cases a <;> rfl

/-- First step: the accumulator ends at the step applied to the zero block. -/
theorem scratch_first (c : Dev nD) (i : grid0.Coords) (arg2 : Memref sig .tc .vmem S128x2048 .f32) (harg2 : arg2.IsWhole) (arg3 : Memref sig .tc .vmem S1024x2048 .f32) (harg3 : arg3.IsWhole) (arg4 : Memref sig .tc .vmem S128x1024 .f32) (harg4 : arg4.IsWhole) (arg5 : Memref sig .tc .vmem S1x1024 .f32) (harg5 : arg5.IsWhole) (arg6 : Memref sig .tc .vmem S128x1024 .f32) (harg6 : arg6.IsWhole) (arg7 : Memref sig .tc .vmem S128x1024 .f32) (harg7 : arg7.IsWhole) (hc0 : cond0_0 i) (hc1 : ¬cond0_1 i) (x0 : Vec F S128x2048 .f32) (x1 : Vec F S1024x2048 .f32) (x2 : Vec F S128x1024 .f32) (x3 : Vec F S1x1024 .f32) :
    sout0_A_0 c i arg2 harg2 arg3 harg3 arg4 harg4 arg5 harg5 arg6 harg6 arg7 harg7 hc0 hc1 x0 x1 x2 x3 = k0_pay2 x0 x1 k0_pay1 := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S128x1024) hz, View.readCov_unit_zero (S := S128x1024) _ hz]
  simp only [View.readAt_eq_ld, harg2.read_unread, harg3.read_unread, View.ld_unit_zero (S := S128x2048) hz, View.ld_unit_zero (S := S1024x2048) hz, View.ld_unit_zero (S := S128x1024) hz, View.ld_unit_zero (S := S1x1024) hz]

/-- Middle steps: the accumulator ends at the step applied to what it held. -/
theorem scratch_mid (c : Dev nD) (i : grid0.Coords) (arg2 : Memref sig .tc .vmem S128x2048 .f32) (harg2 : arg2.IsWhole) (arg3 : Memref sig .tc .vmem S1024x2048 .f32) (harg3 : arg3.IsWhole) (arg4 : Memref sig .tc .vmem S128x1024 .f32) (harg4 : arg4.IsWhole) (arg5 : Memref sig .tc .vmem S1x1024 .f32) (harg5 : arg5.IsWhole) (arg6 : Memref sig .tc .vmem S128x1024 .f32) (harg6 : arg6.IsWhole) (arg7 : Memref sig .tc .vmem S128x1024 .f32) (harg7 : arg7.IsWhole) (hc0 : ¬cond0_0 i) (hc1 : ¬cond0_1 i) (x0 : Vec F S128x2048 .f32) (x1 : Vec F S1024x2048 .f32) (x2 : Vec F S128x1024 .f32) (x3 : Vec F S1x1024 .f32) (xs0 : Vec F S128x1024 .f32) :
    sout0_B_0 c i arg2 harg2 arg3 harg3 arg4 harg4 arg5 harg5 arg6 harg6 arg7 harg7 hc0 hc1 x0 x1 x2 x3 xs0 = k0_pay2 x0 x1 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  rw [View.canon_unit_zero hz]
  simp only [View.readAt_eq_ld, harg2.read_unread, harg3.read_unread, harg7.read_unread, View.ld_unit_zero (S := S128x2048) hz, View.ld_unit_zero (S := S1024x2048) hz, View.ld_unit_zero (S := S128x1024) hz, View.ld_unit_zero (S := S1x1024) hz]

/-- Last step: the accumulator likewise … -/
theorem scratch_last (c : Dev nD) (i : grid0.Coords) (arg2 : Memref sig .tc .vmem S128x2048 .f32) (harg2 : arg2.IsWhole) (arg3 : Memref sig .tc .vmem S1024x2048 .f32) (harg3 : arg3.IsWhole) (arg4 : Memref sig .tc .vmem S128x1024 .f32) (harg4 : arg4.IsWhole) (arg5 : Memref sig .tc .vmem S1x1024 .f32) (harg5 : arg5.IsWhole) (arg6 : Memref sig .tc .vmem S128x1024 .f32) (harg6 : arg6.IsWhole) (arg7 : Memref sig .tc .vmem S128x1024 .f32) (harg7 : arg7.IsWhole) (hc0 : ¬cond0_0 i) (hc1 : cond0_1 i) (x0 : Vec F S128x2048 .f32) (x1 : Vec F S1024x2048 .f32) (x2 : Vec F S128x1024 .f32) (x3 : Vec F S1x1024 .f32) (xs0 : Vec F S128x1024 .f32) :
    sout0_C_0 c i arg2 harg2 arg3 harg3 arg4 harg4 arg5 harg5 arg6 harg6 arg7 harg7 hc0 hc1 x0 x1 x2 x3 xs0 = k0_pay2 x0 x1 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz]
  simp only [View.readAt_eq_ld, harg2.read_unread, harg3.read_unread, harg7.read_unread, View.ld_unit_zero (S := S128x2048) hz, View.ld_unit_zero (S := S1024x2048) hz, View.ld_unit_zero (S := S128x1024) hz, View.ld_unit_zero (S := S1x1024) hz]

/-- … and the output block is the closing value over that new accumulator. -/
theorem out_last (c : Dev nD) (i : grid0.Coords) (arg2 : Memref sig .tc .vmem S128x2048 .f32) (harg2 : arg2.IsWhole) (arg3 : Memref sig .tc .vmem S1024x2048 .f32) (harg3 : arg3.IsWhole) (arg4 : Memref sig .tc .vmem S128x1024 .f32) (harg4 : arg4.IsWhole) (arg5 : Memref sig .tc .vmem S1x1024 .f32) (harg5 : arg5.IsWhole) (arg6 : Memref sig .tc .vmem S128x1024 .f32) (harg6 : arg6.IsWhole) (arg7 : Memref sig .tc .vmem S128x1024 .f32) (harg7 : arg7.IsWhole) (hc0 : ¬cond0_0 i) (hc1 : cond0_1 i) (x0 : Vec F S128x2048 .f32) (x1 : Vec F S1024x2048 .f32) (x2 : Vec F S128x1024 .f32) (x3 : Vec F S1x1024 .f32) (xs0 : Vec F S128x1024 .f32) :
    out0_C_4 c i arg2 harg2 arg3 harg3 arg4 harg4 arg5 harg5 arg6 harg6 arg7 harg7 hc0 hc1 x0 x1 x2 x3 xs0 = k0_pay3 x2 x3 (k0_pay2 x0 x1 xs0) := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz, View.readCov_unit_zero (S := S128x1024) _ hz]
  simp only [View.readAt_eq_ld, harg2.read_unread, harg3.read_unread, harg4.read_unread, harg5.read_unread,
    harg7.read_unread, View.ld_unit_zero (S := S128x2048) hz, View.ld_unit_zero (S := S1024x2048) hz, View.ld_unit_zero (S := S128x1024) hz, View.ld_unit_zero (S := S1x1024) hz]

end Cert.KernelIdeal.Pieces

end
-- ==== Proof.PayAt.lean ====
/-
  What the kernel body's three stored values are, entry by entry, over the extended reals.

  * the reset stores the zero block;
  * the accumulation step stores acc + (x block) (w block)^T: entry (p, q) is acc (p, q) plus the sum over the
    2048 columns j of the block of x (p, j) * w (q, j) (both operands are contracted along their second axis;
    the change of float format in front of the product is the identity on the extended reals);
  * the closing step stores acc + y * b, where the one row b is repeated down the 128 rows: entry (p, q) is
    acc (p, q) + y (p, q) * b (0, q).
-/
import proofs.«171268_j70806830841898_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayAt

open Cert.KernelIdeal Cert.KernelIdeal.Gen Idealize.ShloMosaic Idealize.ShloMosaic.ValueIdx
open scoped BigOperators

/-- The left operand of the block product is read at row `p` of the output index … -/
theorem lhs_row (i : S128x1024.Idx) (k : dot_S128x2048_S1024x2048_S128x1024_1_1_0_0_n_n.contr.Idx) :
    (dot_S128x2048_S1024x2048_S128x1024_1_1_0_0_n_n.lhsIdx i k 0).val = (i 0).val := by
  unfold DotDims.lhsIdx
  rw [dif_neg (show ¬(0 : Fin S128x2048.rank) ∈ dot_S128x2048_S1024x2048_S128x1024_1_1_0_0_n_n.lhsBatch by decide),
    dif_pos (show (0 : Fin S128x2048.rank) ∈ dot_S128x2048_S1024x2048_S128x1024_1_1_0_0_n_n.lhsNonContracting by decide)]
  rfl

/-- … and at the contracted column; -/
theorem lhs_col (i : S128x1024.Idx) (k : dot_S128x2048_S1024x2048_S128x1024_1_1_0_0_n_n.contr.Idx) :
    (dot_S128x2048_S1024x2048_S128x1024_1_1_0_0_n_n.lhsIdx i k 1).val = (k ⟨0, by decide⟩).val :=
  dot_S128x2048_S1024x2048_S128x1024_1_1_0_0_n_n.lhsIdx_val_of_single rfl i k

/-- the right operand is read at the row the output's column names … -/
theorem rhs_row (i : S128x1024.Idx) (k : dot_S128x2048_S1024x2048_S128x1024_1_1_0_0_n_n.contr.Idx) :
    (dot_S128x2048_S1024x2048_S128x1024_1_1_0_0_n_n.rhsIdx i k 0).val = (i 1).val := by
  unfold DotDims.rhsIdx
  rw [dif_neg (show ¬(0 : Fin S1024x2048.rank) ∈ dot_S128x2048_S1024x2048_S128x1024_1_1_0_0_n_n.rhsBatch by decide),
    dif_pos (show (0 : Fin S1024x2048.rank) ∈ dot_S128x2048_S1024x2048_S128x1024_1_1_0_0_n_n.rhsNonContracting by decide)]
  rfl

/-- … and at the contracted column. -/
theorem rhs_col (i : S128x1024.Idx) (k : dot_S128x2048_S1024x2048_S128x1024_1_1_0_0_n_n.contr.Idx) :
    (dot_S128x2048_S1024x2048_S128x1024_1_1_0_0_n_n.rhsIdx i k 1).val = (k ⟨0, by decide⟩).val :=
  dot_S128x2048_S1024x2048_S128x1024_1_1_0_0_n_n.rhsIdx_val_of_single rfl i k

/-- The block product into the zero accumulator, at (p, q): the sum over the block's columns of the products
    of row p of the left operand with row q of the right operand. -/
theorem blockDot_at (l : FVec Ideal S128x2048 .bf16) (r : FVec Ideal S1024x2048 .bf16) (p : Fin 128) (q : Fin 1024) :
    FloatOps.matmul dot_S128x2048_S1024x2048_S128x1024_1_1_0_0_n_n none l r (constant S128x1024 .f32 0x00000000#32) (ix2 p q)
      = ∑ j : Fin 2048, l (ix2 p j) * r (ix2 q j) := by
  rw [Ideal.matmul_constant_zero_apply,
    ← Equiv.sum_comp (contrEquiv1 dot_S128x2048_S1024x2048_S128x1024_1_1_0_0_n_n 2048 rfl rfl).symm]
  refine Finset.sum_congr rfl fun k _ => ?_
  have hk := contrEquiv1_symm_val dot_S128x2048_S1024x2048_S128x1024_1_1_0_0_n_n 2048 rfl rfl k
  have el : dot_S128x2048_S1024x2048_S128x1024_1_1_0_0_n_n.lhsIdx (ix2 p q) ((contrEquiv1 dot_S128x2048_S1024x2048_S128x1024_1_1_0_0_n_n 2048 rfl rfl).symm k) = ix2 p k :=
    funext fun a => Fin.ext (by
      match a with
      | ⟨0, _⟩ => exact lhs_row _ _
      | ⟨1, _⟩ => exact (lhs_col _ _).trans hk)
  have er : dot_S128x2048_S1024x2048_S128x1024_1_1_0_0_n_n.rhsIdx (ix2 p q) ((contrEquiv1 dot_S128x2048_S1024x2048_S128x1024_1_1_0_0_n_n 2048 rfl rfl).symm k) = ix2 q k :=
    funext fun a => Fin.ext (by
      match a with
      | ⟨0, _⟩ => exact rhs_row _ _
      | ⟨1, _⟩ => exact (rhs_col _ _).trans hk)
  rw [el, er]

/-- The reset's value: zero everywhere. -/
theorem pay1_at (p : Fin 128) (q : Fin 1024) : k0_pay1 (F := Ideal) (ix2 p q) = (0 : EReal) := by
  unfold k0_pay1
  simp only [shapeCast_self]
  exact Ideal.ofBits_zero_f32

/-- The accumulation step's value at (p, q). -/
theorem pay2_at (x0 : FVec Ideal S128x2048 .f32) (x1 : FVec Ideal S1024x2048 .f32) (acc : FVec Ideal S128x1024 .f32)
    (p : Fin 128) (q : Fin 1024) :
    k0_pay2 (F := Ideal) x0 x1 acc (ix2 p q) = acc (ix2 p q) + ∑ j : Fin 2048, x0 (ix2 p j) * x1 (ix2 q j) := by
  unfold k0_pay2
  simp only [shapeCast_self]
  exact congrArg (fun z : EReal => acc (ix2 p q) + z)
    ((blockDot_at (truncf .bf16 x0 bitsLt_bf16_f32) (truncf .bf16 x1 bitsLt_bf16_f32) p q).trans
      (Finset.sum_congr rfl fun j _ => rfl))

/-- The closing step's value at (p, q). -/
theorem pay3_at (y : FVec Ideal S128x1024 .f32) (b : FVec Ideal S1x1024 .f32) (acc : FVec Ideal S128x1024 .f32)
    (p : Fin 128) (q : Fin 1024) :
    k0_pay3 (F := Ideal) y b acc (ix2 p q) = acc (ix2 p q) + y (ix2 p q) * b (ix2 (0 : Fin 1) q) := by
  unfold k0_pay3
  simp only [shapeCast_self]
  exact congrArg (fun z : EReal => acc (ix2 p q) + y (ix2 p q) * z)
    (broadcastTo_1b_ab_apply b broadcasts_S1x1024_S128x1024 p q)

end Cert.KernelIdeal.PayAt

end
-- ==== Proof.Blocks.lean ====
/-
  Where each window's block sits in its array.

  The grid has 8 x 4 points, numbered row-major: point t is output tile n = t / 4 at contraction step k = t % 4.
  * x      [128, 8192], blocks [128, 2048]:  block (0, k) — entry (p, j) of the block is x (p, 2048 k + j);
  * w      [8192, 8192], blocks [1024, 2048]: block (n, k) — entry (q, j) is w (1024 n + q, 2048 k + j);
  * y      [128, 8192], blocks [128, 1024]:  block (0, n) — entry (p, q) is y (p, 1024 n + q);
  * b      [1, 8192],   blocks [1, 1024]:    block (0, n) — entry (0, q) is b (0, 1024 n + q);
  * out    [128, 8192], blocks [128, 1024]:  block (0, n).
  A block's coordinate is always block index times block size plus the coordinate inside the block.
-/
import proofs.«171268_j70806830841898_2_alg».proof.Proof.Gen.KernelIdeal.Frame.Runs
import Idealize.ShloMosaic.Lib.ValueIdx
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The block indices of the five windows at every grid point. -/
theorem index_x : ∀ t : Fin cfg0.N, win0_0.index t (0 : Fin 2) = 0 ∧ win0_0.index t (1 : Fin 2) = t.val % 4 :=
  (by decide +kernel : ∀ t : Fin grid0.N, win0_0.index t (0 : Fin 2) = 0 ∧ win0_0.index t (1 : Fin 2) = t.val % 4)
theorem index_w : ∀ t : Fin cfg0.N, win0_1.index t (0 : Fin 2) = t.val / 4 ∧ win0_1.index t (1 : Fin 2) = t.val % 4 :=
  (by decide +kernel : ∀ t : Fin grid0.N, win0_1.index t (0 : Fin 2) = t.val / 4 ∧ win0_1.index t (1 : Fin 2) = t.val % 4)
theorem index_y : ∀ t : Fin cfg0.N, win0_2.index t (0 : Fin 2) = 0 ∧ win0_2.index t (1 : Fin 2) = t.val / 4 :=
  (by decide +kernel : ∀ t : Fin grid0.N, win0_2.index t (0 : Fin 2) = 0 ∧ win0_2.index t (1 : Fin 2) = t.val / 4)
theorem index_b : ∀ t : Fin cfg0.N, win0_3.index t (0 : Fin 2) = 0 ∧ win0_3.index t (1 : Fin 2) = t.val / 4 :=
  (by decide +kernel : ∀ t : Fin grid0.N, win0_3.index t (0 : Fin 2) = 0 ∧ win0_3.index t (1 : Fin 2) = t.val / 4)
theorem index_out : ∀ t : Fin cfg0.N, win0_4.index t (0 : Fin 2) = 0 ∧ win0_4.index t (1 : Fin 2) = t.val / 4 :=
  (by decide +kernel : ∀ t : Fin grid0.N, win0_4.index t (0 : Fin 2) = 0 ∧ win0_4.index t (1 : Fin 2) = t.val / 4)

/-- The x block at point t, entry (p, j). -/
theorem xblk_at (c : Dev nD) (t : Fin cfg0.N) (p : Fin 128) (j : Fin 2048) (J : Fin 8192)
    (hJ : J.val = 2048 * (t.val % 4) + j.val) :
    (iblk m c 0 t : Vec F S128x2048 .f32) (ix2 p j) = V m c main_arg0 (ix2 p J) := by
  unfold iblk
  rw [View.read_apply]
  show V m c main_arg0 _ = V m c main_arg0 _
  refine congrArg _ (funext fun a => Fin.ext ?_)
  match a with
  | ⟨0, _⟩ => show win0_0.index t 0 * 128 + 1 * p.val = p.val; rw [(index_x t).1]; omega
  | ⟨1, _⟩ => show win0_0.index t 1 * 2048 + 1 * j.val = J.val; rw [(index_x t).2]; omega

/-- The w block at point t, entry (q, j). -/
theorem wblk_at (c : Dev nD) (t : Fin cfg0.N) (q : Fin 1024) (j : Fin 2048) (Q J : Fin 8192)
    (hQ : Q.val = 1024 * (t.val / 4) + q.val) (hJ : J.val = 2048 * (t.val % 4) + j.val) :
    (iblk m c 1 t : Vec F S1024x2048 .f32) (ix2 q j) = V m c main_arg1 (ix2 Q J) := by
  unfold iblk
  rw [View.read_apply]
  show V m c main_arg1 _ = V m c main_arg1 _
  refine congrArg _ (funext fun a => Fin.ext ?_)
  match a with
  | ⟨0, _⟩ => show win0_1.index t 0 * 1024 + 1 * q.val = Q.val; rw [(index_w t).1]; omega
  | ⟨1, _⟩ => show win0_1.index t 1 * 2048 + 1 * j.val = J.val; rw [(index_w t).2]; omega

/-- The y block at point t, entry (p, q). -/
theorem yblk_at (c : Dev nD) (t : Fin cfg0.N) (p : Fin 128) (q : Fin 1024) (Q : Fin 8192)
    (hQ : Q.val = 1024 * (t.val / 4) + q.val) :
    (iblk m c 2 t : Vec F S128x1024 .f32) (ix2 p q) = V m c main_v4 (ix2 p Q) := by
  unfold iblk
  rw [View.read_apply]
  show V m c main_v4 _ = V m c main_v4 _
  refine congrArg _ (funext fun a => Fin.ext ?_)
  match a with
  | ⟨0, _⟩ => show win0_2.index t 0 * 128 + 1 * p.val = p.val; rw [(index_y t).1]; omega
  | ⟨1, _⟩ => show win0_2.index t 1 * 1024 + 1 * q.val = Q.val; rw [(index_y t).2]; omega

/-- The b block at point t, entry (0, q). -/
theorem bblk_at (c : Dev nD) (t : Fin cfg0.N) (q : Fin 1024) (Q : Fin 8192)
    (hQ : Q.val = 1024 * (t.val / 4) + q.val) :
    (iblk m c 3 t : Vec F S1x1024 .f32) (ix2 (0 : Fin 1) q) = V m c main_v12 (ix2 (0 : Fin 1) Q) := by
  unfold iblk
  rw [View.read_apply]
  show V m c main_v12 _ = V m c main_v12 _
  refine congrArg _ (funext fun a => Fin.ext ?_)
  match a with
  | ⟨0, _⟩ => show win0_3.index t 0 * 1 + 1 * 0 = 0; rw [(index_b t).1]
  | ⟨1, _⟩ => show win0_3.index t 1 * 1024 + 1 * q.val = Q.val; rw [(index_b t).2]; omega

end Cert.KernelIdeal.Blocks

end
-- ==== Proof.LibRowDot.lean ====
/-
  Row products of two matrices, read by natural-number coordinates.

  An entry of a matrix is read at a pair of natural numbers, and is zero outside the matrix; the first `n`
  products of row `r` of `A` with row `s` of `B` are summed over `Finset.range n`.  Read this way a partial
  inner product grows one block of `L` products at a time (`rowDot_block`), starts at zero, and at the full
  width is the inner product of the two rows over `Fin K` (`rowDot_full`).  Addition of extended reals is
  commutative and associative, so no finiteness is needed anywhere here.
-/
import Idealize.ShloMosaic.PureOps.Ideal
import Idealize.ShloMosaic.Lib.ValueIdx

noncomputable section

open Idealize.ShloMosaic Idealize.ShloMosaic.ValueIdx
open scoped BigOperators

namespace Cert.MatSpec

/-- Entry `(r, l)` of an `R × K` matrix, read at natural numbers: zero outside the matrix. -/
def at2 {R K : Nat} (A : (⟨2, ![R, K]⟩ : Shape).Idx → EReal) (r l : Nat) : EReal :=
  if h : r < R ∧ l < K then A (ix2 ⟨r, h.1⟩ ⟨l, h.2⟩) else 0

/-- Inside the matrix the reading is the entry. -/
theorem at2_of_lt {R K : Nat} (A : (⟨2, ![R, K]⟩ : Shape).Idx → EReal) (r l : Nat) (hr : r < R) (hl : l < K) :
    at2 A r l = A (ix2 ⟨r, hr⟩ ⟨l, hl⟩) := by
  unfold at2
  rw [dif_pos ⟨hr, hl⟩]

/-- The sum of the first `n` products of row `r` of `A` with row `s` of `B`. -/
def rowDot {R S K : Nat} (A : (⟨2, ![R, K]⟩ : Shape).Idx → EReal) (B : (⟨2, ![S, K]⟩ : Shape).Idx → EReal)
    (r s n : Nat) : EReal :=
  ∑ l ∈ Finset.range n, at2 A r l * at2 B s l

/-- No product yet: zero. -/
theorem rowDot_zero {R S K : Nat} (A : (⟨2, ![R, K]⟩ : Shape).Idx → EReal) (B : (⟨2, ![S, K]⟩ : Shape).Idx → EReal)
    (r s : Nat) : rowDot A B r s 0 = 0 :=
  Finset.sum_range_zero _

/-- One more block of `L` products: the sum over `b + 1` blocks is the sum over `b` blocks plus the products
    at positions `L * b + kk`, `kk < L`. -/
theorem rowDot_block {R S K : Nat} (A : (⟨2, ![R, K]⟩ : Shape).Idx → EReal) (B : (⟨2, ![S, K]⟩ : Shape).Idx → EReal)
    (r s L b : Nat) :
    rowDot A B r s (L * (b + 1))
      = rowDot A B r s (L * b) + ∑ kk : Fin L, at2 A r (L * b + kk.val) * at2 B s (L * b + kk.val) := by
  unfold rowDot
  rw [show L * (b + 1) = L * b + L from by ring, Finset.sum_range_add,
    Finset.sum_range (fun x => at2 A r (L * b + x) * at2 B s (L * b + x))]

/-- All `K` products of two rows inside the matrices: the inner product of the rows. -/
theorem rowDot_full {R S K : Nat} (A : (⟨2, ![R, K]⟩ : Shape).Idx → EReal) (B : (⟨2, ![S, K]⟩ : Shape).Idx → EReal)
    (r : Fin R) (s : Fin S) :
    rowDot A B r.val s.val K = ∑ k : Fin K, A (ix2 r k) * B (ix2 s k) := by
  unfold rowDot
  rw [Finset.sum_range (fun l => at2 A r.val l * at2 B s.val l)]
  refine Finset.sum_congr rfl fun k _ => ?_
  rw [at2_of_lt A r.val k.val r.isLt k.isLt, at2_of_lt B s.val k.val s.isLt k.isLt]

/-- The partial sums only depend on the entries read: two pairs of matrices, of any sizes, whose readings agree
    along rows `r` and `s` have the same partial sums. -/
theorem rowDot_congr {R S K R' S' K' : Nat} (A : (⟨2, ![R, K]⟩ : Shape).Idx → EReal) (A' : (⟨2, ![R', K']⟩ : Shape).Idx → EReal)
    (B : (⟨2, ![S, K]⟩ : Shape).Idx → EReal) (B' : (⟨2, ![S', K']⟩ : Shape).Idx → EReal)
    (r s n : Nat) (hA : ∀ l, at2 A r l = at2 A' r l) (hB : ∀ l, at2 B s l = at2 B' s l) :
    rowDot A B r s n = rowDot A' B' r s n := by
  unfold rowDot
  exact Finset.sum_congr rfl fun l _ => by rw [hA l, hB l]

end Cert.MatSpec

end
-- ==== Proof.Accum.lean ====
/-
  The accumulator across the contraction axis of the grid.

  Point t = 4 n + k works on output tile n at contraction step k.  After it, entry (p, q) of the accumulator is
  the sum of the first 2048 (k + 1) products of row p of x with row 1024 n + q of w:
  * at k = 0 the accumulator is reset to zero and one block of 2048 products is added;
  * at k > 0 it holds what point t - 1 (same tile, step k - 1) left, and one more block is added.
  So at k = 3 it is the whole inner product over the 8192 columns, and the output block stored there adds the
  low-rank correction y * b to it.
-/
import proofs.«171268_j70806830841898_2_alg».proof.Proof.Gen.KernelIdeal.Frame
import proofs.«171268_j70806830841898_2_alg».proof.Proof.Pieces
import proofs.«171268_j70806830841898_2_alg».proof.Proof.PayAt
import proofs.«171268_j70806830841898_2_alg».proof.Proof.Blocks
import proofs.«171268_j70806830841898_2_alg».proof.Proof.LibRowDot

noncomputable section

namespace Cert.KernelIdeal.Accum

open Cert.KernelIdeal Cert.KernelIdeal.Gen Idealize.ShloMosaic Idealize.ShloMosaic.TcCoe Idealize.SL.Sem
open Idealize.ShloMosaic.ValueIdx Cert.MatSpec
open scoped BigOperators

section anyFloat

variable {F : FTy → Type} [FloatOps F]
variable (m : (ℓ : Loc nD τ sig) → Buf (Elt F) ℓ)

/-- What a point finds in the accumulator: the zero block at a tile's first step, otherwise what the point before left. -/
def found (c : Dev nD) (t : Fin cfg0.N) : Vec F S128x1024 .f32 :=
  if t.val % 4 = 0 then k0_pay1
  else (outsAt0 m c (t.val - 1) (Nat.lt_of_le_of_lt (Nat.sub_le _ _) t.isLt)).2

/-- After every point the accumulator is the step's value over what the point found. -/
theorem acc_step (c : Dev nD) (t : Fin cfg0.N) :
    (outsAt0 m c t.val t.isLt).2 = k0_pay2 (iblk m c 0 t) (iblk m c 1 t) (found m c t) := by
  have hN : t.val < 32 := lt_of_lt_of_eq t.isLt N_0
  unfold found
  by_cases h0 : t.val % 4 = 0
  · have h1 : ¬t.val % 4 = 3 := by omega
    rw [if_pos h0, outsAt0_A m c t h0 h1]
    dsimp only
    exact Pieces.scratch_first (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)
  · rw [if_neg h0]
    by_cases h1 : t.val % 4 = 3
    · rw [outsAt0_C m c t h0 h1]
      dsimp only
      exact Pieces.scratch_last (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t)
        (outsAt0 m c (t.val - 1) (Nat.lt_of_le_of_lt (Nat.sub_le _ _) t.isLt)).2
    · rw [outsAt0_B m c t h0 h1]
      dsimp only
      exact Pieces.scratch_mid (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t)
        (outsAt0 m c (t.val - 1) (Nat.lt_of_le_of_lt (Nat.sub_le _ _) t.isLt)).2

/-- At a tile's last step the output block is the closing value over the accumulator the step leaves. -/
theorem out_step (c : Dev nD) (t : Fin cfg0.N) (h0 : ¬t.val % 4 = 0) (h1 : t.val % 4 = 3) :
    (outsAt0 m c t.val t.isLt).1 = k0_pay3 (iblk m c 2 t) (iblk m c 3 t) (outsAt0 m c t.val t.isLt).2 := by
  rw [outsAt0_C m c t h0 h1]
  dsimp only
  exact (Pieces.out_last (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t)
      (outsAt0 m c (t.val - 1) (Nat.lt_of_le_of_lt (Nat.sub_le _ _) t.isLt)).2).trans
    (congrArg (k0_pay3 (F := F) (iblk m c 2 t) (iblk m c 3 t))
      (Pieces.scratch_last (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t)
        (outsAt0 m c (t.val - 1) (Nat.lt_of_le_of_lt (Nat.sub_le _ _) t.isLt)).2).symm)

end anyFloat

section ideal

variable (m : (ℓ : Loc nD τ sig) → Buf (Elt Ideal) ℓ)

/-- The two streamed arrays as the region finds them. -/
abbrev X (c : Dev nD) : (⟨2, ![128, 8192]⟩ : Shape).Idx → EReal := V m c main_arg0
abbrev W (c : Dev nD) : (⟨2, ![8192, 8192]⟩ : Shape).Idx → EReal := V m c main_arg1

/-- The partial inner products: after point t = 4 n + k, entry (p, q) of the accumulator is the sum of the first
    2048 (k + 1) products of row p of x with row 1024 n + q of w.  By induction on the point. -/
theorem acc_at (c : Dev nD) : ∀ (n : ℕ) (h : n < cfg0.N) (p : Fin 128) (q : Fin 1024),
    ((outsAt0 m c n h).2 : FVec Ideal S128x1024 .f32) (ix2 p q)
      = rowDot (X m c) (W m c) p.val (1024 * (n / 4) + q.val) (2048 * (n % 4 + 1)) := by
  intro n
  induction n using Nat.strong_induction_on with
  | _ n ih =>
    intro h p q
    have hN : n < 32 := lt_of_lt_of_eq h N_0
    refine (congrFun (acc_step m c ⟨n, h⟩) (ix2 p q)).trans ?_
    refine (PayAt.pay2_at (iblk m c 0 ⟨n, h⟩) (iblk m c 1 ⟨n, h⟩) (found m c ⟨n, h⟩) p q).trans ?_
    rw [rowDot_block]
    refine congrArg₂ (· + ·) ?_ (Finset.sum_congr rfl fun j _ => ?_)
    · unfold found
      by_cases h0 : n % 4 = 0
      · rw [if_pos h0, PayAt.pay1_at, h0, Nat.mul_zero, rowDot_zero]
      · rw [if_neg h0]
        have e1 : (n - 1) / 4 = n / 4 := by omega
        have e2 : (n - 1) % 4 + 1 = n % 4 := by omega
        refine (ih (n - 1) (by omega) _ p q).trans ?_
        rw [e1, e2]
    · have hp := p.isLt
      have hq := q.isLt
      have hj := j.isLt
      exact congrArg₂ (· * ·)
        ((Blocks.xblk_at m c ⟨n, h⟩ p j ⟨2048 * (n % 4) + j.val, by omega⟩ rfl).trans
          (at2_of_lt (X m c) p.val (2048 * (n % 4) + j.val) p.isLt (by omega)).symm)
        ((Blocks.wblk_at m c ⟨n, h⟩ q j ⟨1024 * (n / 4) + q.val, by omega⟩ ⟨2048 * (n % 4) + j.val, by omega⟩ rfl rfl).trans
          (at2_of_lt (W m c) (1024 * (n / 4) + q.val) (2048 * (n % 4) + j.val) (by omega) (by omega)).symm)

end ideal

end Cert.KernelIdeal.Accum

end
-- ==== Proof.RealLaw.lean ====
/-
  The one law of real arithmetic that joins the two programs: for finitely many real terms,
  a sum of products x k * (w k + s * ((a k * b) * c)) splits into the sum of x k * w k plus the
  sum of x k * a k, scaled once by b * (s * c).
-/
import Mathlib.Algebra.BigOperators.Ring.Finset
import Mathlib.Data.Real.Basic
import Mathlib.Tactic.Ring

namespace LokrLaw

/-- Distributing the correction out of the contraction, over the reals. -/
theorem sum_split {ι : Type*} (t : Finset ι) (x w a : ι → ℝ) (b s c : ℝ) :
    ∑ k ∈ t, x k * (w k + s * ((a k * b) * c))
      = ∑ k ∈ t, x k * w k + (∑ k ∈ t, x k * a k) * (b * (s * c)) := by
  rw [Finset.sum_mul, ← Finset.sum_add_distrib]
  exact Finset.sum_congr rfl fun k _ => by ring

end LokrLaw
-- ==== Proof.Spec.lean ====
/-
  The function both programs compute, index by index, and why the two spellings agree.

  Write x : [128, 8192], W : [8192, 8192], A : [512, 8192], B : [16, 1], s : [1].  Row n of the
  Kronecker factor is row n / 16 of A scaled by entry n % 16 of B, so the low-rank update of the
  weight at (n, k) is A (n / 16, k) * B (n % 16, 0), doubled and scaled by s.

  * spelled with the update folded into the weight (the dense form):
      out (p, n) = sum over k of x (p, k) * (W (n, k) + s * ((A (n / 16, k) * B (n % 16, 0)) * 2))
  * spelled with the update applied after the contraction (the factored form):
      out (p, n) = (sum over k of x (p, k) * W (n, k))
                     + (sum over k of x (p, k) * A (n / 16, k)) * (B (n % 16, 0) * (s * 2))

  On the extended reals the two differ at infinities (a product does not distribute over a sum there),
  so the equality is proved for arrays all of whose entries are real numbers, through the real law of
  the sibling module: every entry is replaced by its real value, the casts are pushed outward, and the
  identity of real sums closes it.
-/
import Idealize.ShloMosaic.PureOps.Ideal
import Idealize.ShloMosaic.Lib.ValueIdx
import proofs.«171268_j70806830841898_2_alg».proof.Proof.RealLaw

noncomputable section

open Idealize.ShloMosaic Idealize.ShloMosaic.ValueIdx
open scoped BigOperators

namespace Cert.LokrSpec

/-- The float literal 2.0 as both programs spell it. -/
abbrev two : EReal := Ideal.ofBits .f32 0x40000000#32

/-- It denotes the real number 2. -/
theorem two_eq : two = ((2 : ℝ) : EReal) := by
  simp [two, Ideal.ofBits, Ideal.ieee, -EReal.coe_mul]; norm_num

/-- Which row of A an output column reads: column n reads row n / 16. -/
abbrev rowOf (n : Fin 8192) : Fin 512 := ⟨n.val / 16, by have := n.isLt; omega⟩

/-- Which entry of B an output column reads: column n reads entry n % 16. -/
abbrev subOf (n : Fin 8192) : Fin 16 := ⟨n.val % 16, Nat.mod_lt _ (by decide)⟩

/-- An array all of whose entries are real numbers. -/
def AllReal {S : Shape} (v : S.Idx → EReal) : Prop := ∀ i, ∃ r : ℝ, v i = (r : EReal)

/-- The factored form at output coordinates (p, n). -/
def factoredAt (x : (⟨2, ![128, 8192]⟩ : Shape).Idx → EReal) (W : (⟨2, ![8192, 8192]⟩ : Shape).Idx → EReal)
    (A : (⟨2, ![512, 8192]⟩ : Shape).Idx → EReal) (B : (⟨2, ![16, 1]⟩ : Shape).Idx → EReal)
    (s : (⟨1, ![1]⟩ : Shape).Idx → EReal) (p : Fin 128) (n : Fin 8192) : EReal :=
  (∑ k : Fin 8192, x (ix2 p k) * W (ix2 n k))
    + (∑ k : Fin 8192, x (ix2 p k) * A (ix2 (rowOf n) k)) * (B (ix2 (subOf n) (0 : Fin 1)) * (s (ix1 (0 : Fin 1)) * two))

/-- The dense form at output coordinates (p, n). -/
def denseAt (x : (⟨2, ![128, 8192]⟩ : Shape).Idx → EReal) (W : (⟨2, ![8192, 8192]⟩ : Shape).Idx → EReal)
    (A : (⟨2, ![512, 8192]⟩ : Shape).Idx → EReal) (B : (⟨2, ![16, 1]⟩ : Shape).Idx → EReal)
    (s : (⟨1, ![1]⟩ : Shape).Idx → EReal) (p : Fin 128) (n : Fin 8192) : EReal :=
  ∑ k : Fin 8192, x (ix2 p k)
    * (W (ix2 n k) + s (ix1 (0 : Fin 1)) * ((A (ix2 (rowOf n) k) * B (ix2 (subOf n) (0 : Fin 1))) * two))

/-- The result array: the factored form at every index. -/
def G (x : (⟨2, ![128, 8192]⟩ : Shape).Idx → EReal) (W : (⟨2, ![8192, 8192]⟩ : Shape).Idx → EReal)
    (A : (⟨2, ![512, 8192]⟩ : Shape).Idx → EReal) (B : (⟨2, ![16, 1]⟩ : Shape).Idx → EReal)
    (s : (⟨1, ![1]⟩ : Shape).Idx → EReal) : (⟨2, ![128, 8192]⟩ : Shape).Idx → EReal :=
  fun i => factoredAt x W A B s (i 0) (i 1)

/-- A finite sum of real numbers, cast, is the sum of the casts. -/
theorem coe_sum {ι : Type*} (t : Finset ι) (f : ι → ℝ) :
    ((∑ k ∈ t, f k : ℝ) : EReal) = ∑ k ∈ t, ((f k : ℝ) : EReal) := by
  classical
  induction t using Finset.induction_on with
  | empty => simp
  | insert a t ha ih => rw [Finset.sum_insert ha, Finset.sum_insert ha, EReal.coe_add, ih]

/-- The law on the extended reals, for real-valued terms: the correction leaves the contraction. -/
theorem sum_split_ereal {ι : Type*} (t : Finset ι) (x w a : ι → EReal) (b s c : EReal)
    (hx : ∀ k, ∃ r : ℝ, x k = (r : EReal)) (hw : ∀ k, ∃ r : ℝ, w k = (r : EReal))
    (ha : ∀ k, ∃ r : ℝ, a k = (r : EReal)) (hb : ∃ r : ℝ, b = (r : EReal))
    (hs : ∃ r : ℝ, s = (r : EReal)) (hc : ∃ r : ℝ, c = (r : EReal)) :
    ∑ k ∈ t, x k * (w k + s * ((a k * b) * c))
      = ∑ k ∈ t, x k * w k + (∑ k ∈ t, x k * a k) * (b * (s * c)) := by
  choose xr hxr using hx
  choose wr hwr using hw
  choose ar har using ha
  obtain ⟨br, rfl⟩ := hb
  obtain ⟨sr, rfl⟩ := hs
  obtain ⟨cr, rfl⟩ := hc
  have e1 : ∀ k, x k * (w k + (sr : EReal) * ((a k * (br : EReal)) * (cr : EReal)))
      = ((xr k * (wr k + sr * ((ar k * br) * cr)) : ℝ) : EReal) := fun k => by
    rw [hxr k, hwr k, har k]; norm_cast
  have e2 : ∀ k, x k * w k = ((xr k * wr k : ℝ) : EReal) := fun k => by
    rw [hxr k, hwr k]; norm_cast
  have e3 : ∀ k, x k * a k = ((xr k * ar k : ℝ) : EReal) := fun k => by
    rw [hxr k, har k]; norm_cast
  simp only [e1, e2, e3]
  rw [← coe_sum, ← coe_sum, ← coe_sum, ← EReal.coe_mul, ← EReal.coe_mul, ← EReal.coe_mul, ← EReal.coe_add]
  exact congrArg _ (LokrLaw.sum_split t xr wr ar br sr cr)

/-- For arrays of real numbers the dense form is the factored form. -/
theorem denseAt_eq_factoredAt (x : (⟨2, ![128, 8192]⟩ : Shape).Idx → EReal) (W : (⟨2, ![8192, 8192]⟩ : Shape).Idx → EReal)
    (A : (⟨2, ![512, 8192]⟩ : Shape).Idx → EReal) (B : (⟨2, ![16, 1]⟩ : Shape).Idx → EReal)
    (s : (⟨1, ![1]⟩ : Shape).Idx → EReal) (hx : AllReal x) (hW : AllReal W) (hA : AllReal A) (hB : AllReal B)
    (hs : AllReal s) (p : Fin 128) (n : Fin 8192) :
    denseAt x W A B s p n = factoredAt x W A B s p n := by
  unfold denseAt factoredAt
  exact sum_split_ereal Finset.univ (fun k => x (ix2 p k)) (fun k => W (ix2 n k)) (fun k => A (ix2 (rowOf n) k))
    (B (ix2 (subOf n) (0 : Fin 1))) (s (ix1 (0 : Fin 1))) two (fun k => hx _) (fun k => hW _) (fun k => hA _) (hB _) (hs _)
    ⟨2, two_eq⟩

end Cert.LokrSpec

end
-- ==== Proof.HostPrefix.lean ====
/-
  The two operands the host computes before the call, read at an index.

  * y = repeat (x A^T, 16 along columns): the host contracts x [128, 8192] with A^T [8192, 512], repeats every
    column 16 times ([128, 512] to [128, 512, 16]) and flattens to [128, 8192]; column n of the result is column
    n / 16 of the product:  y (p, n) = sum over k of x (p, k) * A (n / 16, k).
  * b = tile (B [:, 0], 512) * (s * 2), as one row [1, 8192]: column n reads entry n % 16 of B:
    b (0, n) = B (n % 16, 0) * (s * 2).
  Every reshape is read through the row-major position of the index, every broadcast through the operand's
  own axes (0 on its unit axes).
-/
import proofs.«171268_j70806830841898_2_alg».proof.Proof.Gen.KernelIdeal.Frame.Runs
import proofs.«171268_j70806830841898_2_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

namespace Cert.KernelIdeal.HostPrefix

open Cert.KernelIdeal Cert.KernelIdeal.Gen Idealize.ShloMosaic Idealize.ShloMosaic.TcCoe Idealize.SL.Sem
open Idealize.ShloMosaic.StableHlo Idealize.ShloMosaic.ValueIdx Cert.LokrSpec
open scoped BigOperators

variable (m : (ℓ : Loc nD τ sig) → Buf (Elt Ideal) ℓ)

/-- The five launch arrays on a device. -/
abbrev argX (c : Dev nD) : FVec Ideal S128x8192 .f32 := m ((c : Thread nD τ).loc main_arg0)
abbrev argW (c : Dev nD) : FVec Ideal S8192x8192 .f32 := m ((c : Thread nD τ).loc main_arg1)
abbrev argA (c : Dev nD) : FVec Ideal S512x8192 .f32 := m ((c : Thread nD τ).loc main_arg2)
abbrev argB (c : Dev nD) : FVec Ideal S16x1 .f32 := m ((c : Thread nD τ).loc main_arg3)
abbrev argS (c : Dev nD) : FVec Ideal S1 .f32 := m ((c : Thread nD τ).loc main_arg4)

/-! ## The host contraction x A^T at an index -/

theorem lhs_row (i : S128x512.Idx) (k : dot_S128x8192_S8192x512_S128x512_1_0_0_1_n_n.contr.Idx) : (dot_S128x8192_S8192x512_S128x512_1_0_0_1_n_n.lhsIdx i k 0).val = (i 0).val := by
  unfold DotDims.lhsIdx
  rw [dif_neg (show ¬(0 : Fin S128x8192.rank) ∈ dot_S128x8192_S8192x512_S128x512_1_0_0_1_n_n.lhsBatch by decide),
    dif_pos (show (0 : Fin S128x8192.rank) ∈ dot_S128x8192_S8192x512_S128x512_1_0_0_1_n_n.lhsNonContracting by decide)]
  rfl
theorem lhs_col (i : S128x512.Idx) (k : dot_S128x8192_S8192x512_S128x512_1_0_0_1_n_n.contr.Idx) : (dot_S128x8192_S8192x512_S128x512_1_0_0_1_n_n.lhsIdx i k 1).val = (k ⟨0, by decide⟩).val :=
  dot_S128x8192_S8192x512_S128x512_1_0_0_1_n_n.lhsIdx_val_of_single rfl i k
theorem rhs_row (i : S128x512.Idx) (k : dot_S128x8192_S8192x512_S128x512_1_0_0_1_n_n.contr.Idx) : (dot_S128x8192_S8192x512_S128x512_1_0_0_1_n_n.rhsIdx i k 0).val = (k ⟨0, by decide⟩).val :=
  dot_S128x8192_S8192x512_S128x512_1_0_0_1_n_n.rhsIdx_val_of_single rfl i k
theorem rhs_col (i : S128x512.Idx) (k : dot_S128x8192_S8192x512_S128x512_1_0_0_1_n_n.contr.Idx) : (dot_S128x8192_S8192x512_S128x512_1_0_0_1_n_n.rhsIdx i k 1).val = (i 1).val := by
  unfold DotDims.rhsIdx
  rw [dif_neg (show ¬(1 : Fin S8192x512.rank) ∈ dot_S128x8192_S8192x512_S128x512_1_0_0_1_n_n.rhsBatch by decide),
    dif_pos (show (1 : Fin S8192x512.rank) ∈ dot_S128x8192_S8192x512_S128x512_1_0_0_1_n_n.rhsNonContracting by decide)]
  rfl

/-- Entry (p, r) of the host product of x [128, 8192] and a [8192, 512]. -/
theorem hostDot_at (x : FVec Ideal S128x8192 .f32) (a : FVec Ideal S8192x512 .f32) (p : Fin 128) (r : Fin 512) :
    Host.dotGeneral (F := Ideal) dot_S128x8192_S8192x512_S128x512_1_0_0_1_n_n none x a (ix2 p r) = ∑ k : Fin 8192, x (ix2 p k) * a (ix2 k r) := by
  simp only [Host.dotGeneral]
  rw [Ideal.dotGeneral_apply, ← Equiv.sum_comp (contrEquiv1 dot_S128x8192_S8192x512_S128x512_1_0_0_1_n_n 8192 rfl rfl).symm]
  refine Finset.sum_congr rfl fun k _ => ?_
  have hk := contrEquiv1_symm_val dot_S128x8192_S8192x512_S128x512_1_0_0_1_n_n 8192 rfl rfl k
  have el : dot_S128x8192_S8192x512_S128x512_1_0_0_1_n_n.lhsIdx (ix2 p r) ((contrEquiv1 dot_S128x8192_S8192x512_S128x512_1_0_0_1_n_n 8192 rfl rfl).symm k) = ix2 p k :=
    funext fun a => Fin.ext (by
      match a with
      | ⟨0, _⟩ => exact lhs_row _ _
      | ⟨1, _⟩ => exact (lhs_col _ _).trans hk)
  have er : dot_S128x8192_S8192x512_S128x512_1_0_0_1_n_n.rhsIdx (ix2 p r) ((contrEquiv1 dot_S128x8192_S8192x512_S128x512_1_0_0_1_n_n 8192 rfl rfl).symm k) = ix2 k r :=
    funext fun a => Fin.ext (by
      match a with
      | ⟨0, _⟩ => exact (rhs_row _ _).trans hk
      | ⟨1, _⟩ => exact rhs_col _ _)
  rw [el, er]

/-! ## The repeated product y -/

/-- What the region finds in y's buffer: the host operations' term. -/
theorem V_y (c : Dev nD) : (V m c main_v4 : S128x8192.Idx → EReal)
    = shapeCast S128x8192 (broadcastInDim S128x512x16 ![0, 1] bcast_S128x512_S128x512x16_0_1
        (Host.dotGeneral (F := Ideal) dot_S128x8192_S8192x512_S128x512_1_0_0_1_n_n none (argX m c)
          (transpose S8192x512 [1, 0] (argA m c) transposes_S512x8192_S8192x512_1_0)))
        shapeCasts_S128x512x16_S128x8192 := by
  dsimp only [Gen.V, Gen.hostOps0]; after_results; rfl

/-- y (p, n) is the contraction of row p of x with row n / 16 of A. -/
theorem y_at (c : Dev nD) (p : Fin 128) (n : Fin 8192) :
    (V m c main_v4 : S128x8192.Idx → EReal) (ix2 p n)
      = ∑ k : Fin 8192, argX m c (ix2 p k) * argA m c (ix2 (rowOf n) k) := by
  rw [V_y]
  refine (shapeCast_apply _ shapeCasts_S128x512x16_S128x8192 (ix2 p n) (ix3 p (rowOf n) (subOf n)) ?_).trans ?_
  · rw [Shape.rowMajor_val_three, Shape.rowMajor_val_two]
    show (p.val * 512 + n.val / 16) * 16 + n.val % 16 = p.val * 8192 + n.val
    omega
  refine (broadcastInDim_apply _ bcast_S128x512_S128x512x16_0_1 _ (ix3 p (rowOf n) (subOf n)) (ix2 p (rowOf n))
    (fun a => match a with
      | ⟨0, _⟩ => by show p.val = if (128 : Nat) = 1 then 0 else p.val; rw [if_neg (by decide)]
      | ⟨1, _⟩ => by show n.val / 16 = if (512 : Nat) = 1 then 0 else n.val / 16; rw [if_neg (by decide)])).trans ?_
  refine (hostDot_at _ _ p (rowOf n)).trans ?_
  exact Finset.sum_congr rfl fun k _ =>
    congrArg _ (transpose_ix2_apply (argA m c) transposes_S512x8192_S8192x512_1_0 k (rowOf n))

/-! ## The scaled tiled row b -/

/-- What the region finds in b's buffer: the host operations' term. -/
theorem V_b (c : Dev nD) : (V m c main_v12 : S1x8192.Idx → EReal)
    = shapeCast S1x8192
        (mulf
          (shapeCast S8192 (broadcastInDim S512x16 ![0, 1] bcast_S1x16_S512x16_0_1
            (shapeCast S1x16 (shapeCast S16 (argB m c) shapeCasts_S16x1_S16) shapeCasts_S16_S1x16)) shapeCasts_S512x16_S8192)
          (broadcastInDim S8192 ![] bcast_S_S8192
            (mulf (shapeCast S_ (argS m c) shapeCasts_S1_S_) (constant (F := Ideal) S_ .f32 0x40000000#32))))
        shapeCasts_S8192_S1x8192 := by
  dsimp only [Gen.V, Gen.hostOps0]; after_results; rfl

/-- b (0, n) is entry n % 16 of B times the doubled scalar. -/
theorem b_at (c : Dev nD) (n : Fin 8192) :
    (V m c main_v12 : S1x8192.Idx → EReal) (ix2 (0 : Fin 1) n)
      = argB m c (ix2 (subOf n) (0 : Fin 1)) * (argS m c (ix1 (0 : Fin 1)) * two) := by
  rw [V_b]
  refine (shapeCast_a_1a_apply _ shapeCasts_S8192_S1x8192 (0 : Fin 1) n).trans ?_
  rw [mulf_apply]
  refine congrArg₂ (· * ·) ?_ ?_
  · refine (shapeCast_apply _ shapeCasts_S512x16_S8192 (ix1 n) (ix2 (rowOf n) (subOf n)) ?_).trans ?_
    · rw [Shape.rowMajor_val_two, Shape.rowMajor_val_one]
      show n.val / 16 * 16 + n.val % 16 = n.val
      omega
    refine (broadcastInDim_apply _ bcast_S1x16_S512x16_0_1 _ (ix2 (rowOf n) (subOf n)) (ix2 (0 : Fin 1) (subOf n))
      (fun a => match a with
        | ⟨0, _⟩ => by show 0 = if (1 : Nat) = 1 then 0 else n.val / 16; rw [if_pos rfl]
        | ⟨1, _⟩ => by show n.val % 16 = if (16 : Nat) = 1 then 0 else n.val % 16; rw [if_neg (by decide)])).trans ?_
    refine (shapeCast_a_1a_apply _ shapeCasts_S16_S1x16 (0 : Fin 1) (subOf n)).trans ?_
    exact shapeCast_apply _ shapeCasts_S16x1_S16 (ix1 (subOf n)) (ix2 (subOf n) (0 : Fin 1)) (by
      rw [Shape.rowMajor_val_two, Shape.rowMajor_val_one]
      show n.val % 16 * 1 + 0 = n.val % 16
      omega)
  · refine (broadcastInDim_apply _ bcast_S_S8192 _ (ix1 n) ix0 (fun a => a.elim0)).trans ?_
    rw [mulf_apply]
    refine congrArg₂ (· * ·) ?_ rfl
    exact shapeCast_apply _ shapeCasts_S1_S_ ix0 (ix1 (0 : Fin 1)) (by
      rw [Shape.rowMajor_val_one]
      have h := (S_.rowMajor ix0).isLt
      have e : S_.numel = 1 := by decide
      show (0 : ℕ) = (S_.rowMajor ix0).val
      omega)

end Cert.KernelIdeal.HostPrefix

end
-- ==== Proof.Final.lean ====
/-
  From the output blocks to the whole result array.

  The output window is written back only at the last contraction step of each tile (points 3, 7, ..., 31), and
  what is written back at point 4 n + 3 is tile n of the factored form of the launch arrays: the accumulator has
  reached the whole inner product, y and b are the host's repeated product and scaled tiled row, and the closing
  step adds their product.  The eight tiles [128, 1024] cover the [128, 8192] array (column j lies in tile
  j / 1024), so the array ends holding the factored form everywhere.
-/
import proofs.«171268_j70806830841898_2_alg».proof.Proof.Gen.KernelIdeal.Value
import proofs.«171268_j70806830841898_2_alg».proof.Proof.Accum
import proofs.«171268_j70806830841898_2_alg».proof.Proof.HostPrefix
import proofs.«171268_j70806830841898_2_alg».proof.Proof.Spec

noncomputable section

namespace Cert.KernelIdeal.Final

open Cert.KernelIdeal Cert.KernelIdeal.Gen Idealize.ShloMosaic Idealize.ShloMosaic.TcCoe Idealize.SL.Sem
open Idealize.ShloMosaic.Pipeline (Dat)
open Idealize.ShloMosaic.ValueIdx Cert.MatSpec Cert.LokrSpec
open scoped BigOperators

variable (m : (ℓ : Loc nD τ sig) → Buf (Elt Ideal) ℓ) (ρ : Dev nD → PrngReg)

/-- The result: the factored form of the five launch arrays. -/
abbrev result (c : Dev nD) : Buf (Elt Ideal) ((c : Thread nD τ).loc main_v13) :=
  G (HostPrefix.argX m c) (HostPrefix.argW m c) (HostPrefix.argA m c) (HostPrefix.argB m c) (HostPrefix.argS m c)

/-- Entry (p, q) of what the last step of tile n stores: the factored form at (p, 1024 n + q). -/
theorem tile_at (c : Dev nD) (t : Fin cfg0.N) (h3 : t.val % 4 = 3) (p : Fin 128) (q : Fin 1024) (Q : Fin 8192)
    (hQ : Q.val = 1024 * (t.val / 4) + q.val) :
    k0_pay3 (F := Ideal) (iblk m c 2 t) (iblk m c 3 t) (outsAt0 m c t.val t.isLt).2 (ix2 p q)
      = factoredAt (HostPrefix.argX m c) (HostPrefix.argW m c) (HostPrefix.argA m c) (HostPrefix.argB m c) (HostPrefix.argS m c) p Q := by
  refine (PayAt.pay3_at (iblk m c 2 t) (iblk m c 3 t) (outsAt0 m c t.val t.isLt).2 p q).trans ?_
  unfold factoredAt
  refine congrArg₂ (· + ·) ?_ (congrArg₂ (· * ·) ?_ ?_)
  · refine (Accum.acc_at m c t.val t.isLt p q).trans ?_
    have e : 2048 * (t.val % 4 + 1) = 8192 := by omega
    rw [e, ← hQ]
    refine (rowDot_full (Accum.X m c) (Accum.W m c) p Q).trans ?_
    exact Finset.sum_congr rfl fun k _ =>
      congrArg₂ (· * ·) (congrFun (V_main_arg0 m c) (ix2 p k)) (congrFun (V_main_arg1 m c) (ix2 Q k))
  · exact (Blocks.yblk_at m c t p q Q hQ).trans (HostPrefix.y_at m c p Q)
  · exact (Blocks.bblk_at m c t q Q hQ).trans (HostPrefix.b_at m c Q)

/-- What a writing-back point writes is its block of the result. -/
theorem flushed_eq (c : Dev nD) (t : Fin cfg0.N) (hf : (cfg0.win 4).flush t = true) :
    (dats m 0 c).flushed 4 t = ((cfg0.win 4).blk t).view.read (Elt Ideal) (result m c) := by
  have hN : t.val < 32 := lt_of_lt_of_eq t.isLt N_0
  have h3 : t.val % 4 = 3 := (flush0_4 t).mp hf
  have h0 : ¬t.val % 4 = 0 := by omega
  rw [Value.flushed4, Accum.out_step m c t h0 h3]
  funext y
  have hy0 : (y 0).val < 128 := (y 0).isLt
  have hy1 : (y 1).val < 1024 := (y 1).isLt
  show k0_pay3 (F := Ideal) (iblk m c 2 t) (iblk m c 3 t) (outsAt0 m c t.val t.isLt).2 y
    = result m c (((cfg0.win 4).blk t).view.emb y)
  have ey : (y : S128x1024.Idx) = ix2 (⟨(y 0).val, hy0⟩ : Fin 128) (⟨(y 1).val, hy1⟩ : Fin 1024) :=
    funext fun a => match a with | ⟨0, _⟩ => rfl | ⟨1, _⟩ => rfl
  refine (congrArg (k0_pay3 (F := Ideal) (iblk m c 2 t) (iblk m c 3 t) (outsAt0 m c t.val t.isLt).2) ey).trans ?_
  refine (tile_at m c t h3 ⟨(y 0).val, hy0⟩ ⟨(y 1).val, hy1⟩ ⟨1024 * (t.val / 4) + (y 1).val, by omega⟩ rfl).trans ?_
  show factoredAt _ _ _ _ _ _ _
    = factoredAt _ _ _ _ _ ((((cfg0.win 4).blk t).view.emb y) 0) ((((cfg0.win 4).blk t).view.emb y) 1)
  have e0 : (((cfg0.win 4).blk t).view.emb y) 0 = (⟨(y 0).val, hy0⟩ : Fin 128) := Fin.ext (by
    show win0_4.index t 0 * 128 + 1 * (y 0).val = (y 0).val
    rw [(Blocks.index_out t).1]; omega)
  have e1 : (((cfg0.win 4).blk t).view.emb y) 1 = (⟨1024 * (t.val / 4) + (y 1).val, by omega⟩ : Fin 8192) := Fin.ext (by
    show win0_4.index t 1 * 1024 + 1 * (y 1).val = 1024 * (t.val / 4) + (y 1).val
    rw [(Blocks.index_out t).2]; omega)
  rw [e0, e1]

/-- An index is in point t's output block iff each coordinate is in the block's range on its axis. -/
theorem mem_blk (t : Fin cfg0.N) (i : S128x8192.Idx) :
    i ∈ ((cfg0.win 4).blk t).view.set ↔ ∀ a : Fin 2, win0_4.index t a * S128x1024.size a ≤ (i a).val
      ∧ (i a).val < win0_4.index t a * S128x1024.size a + S128x1024.size a := by
  show i ∈ ((View.whole main_v13).slice (win0_4.rect t)).set ↔ _
  rw [View.set_slice_whole, Rect.mem_set_unit]
  exact Iff.rfl

/-- Every index of the array lies in the block of a writing-back point: column j in tile j / 1024, written at
    the tile's last step. -/
theorem cover (i : S128x8192.Idx) :
    ∃ t : Fin cfg0.N, (cfg0.win 4).flush t = true ∧ i ∈ ((cfg0.win 4).blk t).view.set := by
  have h0 : (i 0).val < 128 := (i 0).isLt
  have h1 : (i 1).val < 8192 := (i 1).isLt
  have hN : cfg0.N = 32 := N_0
  obtain ⟨t, ht⟩ : ∃ t : Fin cfg0.N, t.val = 4 * ((i 1).val / 1024) + 3 := ⟨⟨_, by rw [hN]; omega⟩, rfl⟩
  refine ⟨t, (flush0_4 t).mpr (by omega), ?_⟩
  rw [mem_blk]
  intro a
  match a with
  | ⟨0, _⟩ =>
    show win0_4.index t (0 : Fin 2) * 128 ≤ (i 0).val ∧ (i 0).val < win0_4.index t (0 : Fin 2) * 128 + 128
    rw [(Blocks.index_out t).1]; omega
  | ⟨1, _⟩ =>
    show win0_4.index t (1 : Fin 2) * 1024 ≤ (i 1).val ∧ (i 1).val < win0_4.index t (1 : Fin 2) * 1024 + 1024
    rw [(Blocks.index_out t).2]; omega

/-- So the result array ends holding the factored form of the launch arrays. -/
theorem final (c : Dev nD) : (dats m 0 c).arrAt 4 cfg0.N = result m c :=
  (dats m 0 c).arrAt_eq_of_cover 4 (result m c) (flushed_eq m c) cover

/-- The kernel's run, read: the result at the factored form, the arguments unchanged. -/
theorem run : θ_run defs (onTc (τ := τ) (main (F := Ideal))) ⟨m, fun _ => 0, ρ⟩ fun r => ∀ c : Dev nD,
      r.2.mem ((c : Thread nD τ).loc main_v13) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Final

end
-- ==== Proof.RefDense.lean ====
/-
  The reference computes the dense form.

  The reference builds the Kronecker factor as a [512, 16, 8192, 1] array (entry (i, j, k, 0) is A (i, k) * B (j, 0)),
  flattens it to [8192, 8192] (row 16 i + j, column k), doubles it, scales it by s, adds the weight, transposes, and
  contracts with x.  Read at output index (p, n): the sum over k of x (p, k) times the transposed sum at (k, n),
  which is the weight at (n, k) plus s * ((A (n / 16, k) * B (n % 16, 0)) * 2) — row n of the flattened factor is
  (i, j) = (n / 16, n % 16).
-/
import proofs.«171268_j70806830841898_2_alg».proof.Proof.Gen.ReferenceIdeal.Read
import proofs.«171268_j70806830841898_2_alg».proof.Proof.Spec
import Idealize.ShloMosaic.Lib.ValueIdx
import Idealize.ShloMosaic.Lib.Pipeline.Value

noncomputable section

namespace Cert.ReferenceIdeal.RefValue

open Cert.ReferenceIdeal Cert.ReferenceIdeal.Gen Cert.ReferenceIdeal.Read Idealize.ShloMosaic
open Idealize.ShloMosaic.ValueIdx Cert.LokrSpec
open scoped BigOperators

/-- The scalar s read out of its one-entry array. -/
theorem scalar_at (x4 : (⟨S1, .f32⟩ : BufTy).Contents (Elt Ideal)) (j : S_.Idx) :
    val_main_v8 (F := Ideal) x4 j = x4 (ix1 (0 : Fin 1)) := by
  unfold val_main_v8
  exact shapeCast_apply x4 shapeCasts_S1_S_ j (ix1 (0 : Fin 1)) (by
    rw [Shape.rowMajor_val_one]
    have h := (S_.rowMajor j).isLt
    have e : S_.numel = 1 := by decide
    show (0 : ℕ) = (S_.rowMajor j).val
    omega)

/-- The reference's result at (p, n) is the dense form. -/
theorem ref_at (x0 : (⟨S128x8192, .f32⟩ : BufTy).Contents (Elt Ideal)) (x1 : (⟨S8192x8192, .f32⟩ : BufTy).Contents (Elt Ideal))
    (x2 : (⟨S512x8192, .f32⟩ : BufTy).Contents (Elt Ideal)) (x3 : (⟨S16x1, .f32⟩ : BufTy).Contents (Elt Ideal))
    (x4 : (⟨S1, .f32⟩ : BufTy).Contents (Elt Ideal)) (p : Fin 128) (n : Fin 8192) :
    val_main_v13 (F := Ideal) x0 x1 x2 x3 x4 (ix2 p n) = denseAt x0 x1 x2 x3 x4 p n := by
  rw [val_main_v13_apply]
  unfold denseAt
  refine Finset.sum_congr rfl fun k _ => ?_
  have hn := n.isLt
  have hk := k.isLt
  have el : lidx_main_v13 (ix2 p n) k = ix2 p k :=
    funext fun a => Fin.ext (by match a with | ⟨0, _⟩ => rfl | ⟨1, _⟩ => rfl)
  have er : ridx_main_v13 (ix2 p n) k = ix2 k n :=
    funext fun a => Fin.ext (by match a with | ⟨0, _⟩ => rfl | ⟨1, _⟩ => rfl)
  have e12 : idx_main_v12 (ix2 k n) = ix2 n k :=
    funext fun a => Fin.ext (by match a with | ⟨0, _⟩ => rfl | ⟨1, _⟩ => rfl)
  have e5 : idx_main_v5 (ix2 n k) = ix4 (rowOf n) (subOf n) k (0 : Fin 1) :=
    funext fun a => Fin.ext (by
      match a with
      | ⟨0, _⟩ => show (n.val * 8192 + k.val) / 131072 = n.val / 16; omega
      | ⟨1, _⟩ => show (n.val * 8192 + k.val) / 8192 % 16 = n.val % 16; omega
      | ⟨2, _⟩ => show (n.val * 8192 + k.val) / 1 % 8192 = k.val; omega
      | ⟨3, _⟩ => rfl)
  have e2 : idx_main_v2 (ix4 (rowOf n) (subOf n) k (0 : Fin 1)) = ix4 (rowOf n) (0 : Fin 1) k (0 : Fin 1) :=
    funext fun a => Fin.ext (by match a with | ⟨0, _⟩ => rfl | ⟨1, _⟩ => rfl | ⟨2, _⟩ => rfl | ⟨3, _⟩ => rfl)
  have e0 : idx_main_v0 (ix4 (rowOf n) (0 : Fin 1) k (0 : Fin 1)) = ix2 (rowOf n) k :=
    funext fun a => Fin.ext (by match a with | ⟨0, _⟩ => rfl | ⟨1, _⟩ => rfl)
  have e3 : idx_main_v3 (ix4 (rowOf n) (subOf n) k (0 : Fin 1)) = ix4 (0 : Fin 1) (subOf n) (0 : Fin 1) (0 : Fin 1) :=
    funext fun a => Fin.ext (by match a with | ⟨0, _⟩ => rfl | ⟨1, _⟩ => rfl | ⟨2, _⟩ => rfl | ⟨3, _⟩ => rfl)
  have e1 : idx_main_v1 (ix4 (0 : Fin 1) (subOf n) (0 : Fin 1) (0 : Fin 1)) = ix2 (subOf n) (0 : Fin 1) :=
    funext fun a => Fin.ext (by match a with | ⟨0, _⟩ => rfl | ⟨1, _⟩ => rfl)
  rw [el, er, val_main_v12_apply, e12, val_main_v11_apply, val_main_v10_apply, val_main_v9_apply, scalar_at,
    val_main_v7_apply, val_main_v6_apply, val_main_cst_apply, val_main_v5_apply, e5, val_main_v4_apply,
    val_main_v2_apply, e2, val_main_v0_apply, e0, val_main_v3_apply, e3, val_main_v1_apply, e1]
  rfl

end Cert.ReferenceIdeal.RefValue

end
-- ==== Proof.Finite.lean ====
/-
  The precondition, decoded: every entry of every input is a real number.

  The precondition is the conjunction, over the five inputs, of "all entries satisfy |x| < +inf".  On the extended
  reals |x| = max x (-x), which is +inf exactly at the two infinities; so an entry that passes the test is a real
  number.  A conjunction of one-bit words is 1 iff both are, and an "all" over an array is 1 only if every entry is.
-/
import proofs.«171268_j70806830841898_2_alg».proof.Pre_finite_inputs
import proofs.«171268_j70806830841898_2_alg».proof.Proof.Spec
import Idealize.ShloMosaic.PureOps.Ideal
import Idealize.ShloMosaic.Lib.ValueIdx
import Idealize.ShloMosaic.Lib.ReduceAll
import Idealize.ShloMosaic.Lib.Affine

noncomputable section

namespace Cert.Finite

open Idealize.ShloMosaic Idealize.ShloMosaic.ValueIdx Cert.LokrSpec Cert.Pre_finite_inputs

instance : Subsingleton S_.Idx := ⟨fun a b => funext fun d => d.elim0⟩

/-- The literal the test compares with is +inf. -/
theorem inf_eq : Ideal.ofBits .f32 0x7F800000#32 = (⊤ : EReal) := by
  simp [Ideal.ofBits, Ideal.ieee]

/-- An extended real whose absolute value is below +inf is a real number. -/
theorem real_of_abs_lt (x : EReal) (h : Ideal.cmp .olt (max x (-x)) (Ideal.ofBits .f32 0x7F800000#32) = 1#1) :
    ∃ r : ℝ, x = (r : EReal) := by
  rw [inf_eq] at h
  have h' : max x (-x) < ⊤ := by
    unfold Ideal.cmp at h
    by_contra hn
    simp [hn] at h
  induction x using EReal.rec with
  | bot => simp at h'
  | top => simp at h'
  | coe r => exact ⟨r, rfl⟩

/-- An array that passes "all |x| < +inf" has only real entries. -/
theorem allReal_of_all {S : Shape} {axes : List (Fin S.rank)} (x : FVec Ideal S .f32)
    (hb : S_.BroadcastsInDim S (![] : Fin 0 → Fin S.rank)) (hr : S.ReducesTo axes S_) (hu : 0 < S_.numel) (init : IVec S_ 1)
    (e : Host.reduce IntOp.andi
      (cmpf .olt (Host.absf x) (broadcastInDim S ![] hb (constant (F := Ideal) S_ .f32 0x7F800000#32))) init hr hu ix0 = 1#1) :
    AllReal x := by
  intro i
  have hi := Host.reduce_andi_all _ init hr hu ix0 e i
  exact real_of_abs_lt (x i) hi

/-- The precondition gives real entries in all five inputs. -/
theorem allReal_of_pre [hP : Cert.Pre_finite_inputs.Facts] (a0 : FVec Ideal S128x8192 .f32) (a1 : FVec Ideal S8192x8192 .f32)
    (a2 : FVec Ideal S512x8192 .f32) (a3 : FVec Ideal S16x1 .f32) (a4 : FVec Ideal S1 .f32)
    (h : Cert.Pre_finite_inputs.fn (F := Ideal) a0 a1 a2 a3 a4 = fun _ => 1#1) :
    AllReal a0 ∧ AllReal a1 ∧ AllReal a2 ∧ AllReal a3 ∧ AllReal a4 := by
  have h0 := congrFun h ix0
  dsimp only [Cert.Pre_finite_inputs.fn, Cert.Pre_finite_inputs.fn_part1] at h0
  obtain ⟨h0123, h4⟩ := IntOp.andi_eq_one.mp h0
  obtain ⟨h012, h3⟩ := IntOp.andi_eq_one.mp h0123
  obtain ⟨h01, h2⟩ := IntOp.andi_eq_one.mp h012
  obtain ⟨h0', h1⟩ := IntOp.andi_eq_one.mp h01
  exact ⟨allReal_of_all a0 _ _ _ _ h0', allReal_of_all a1 _ _ _ _ h1, allReal_of_all a2 _ _ _ _ h2,
    allReal_of_all a3 _ _ _ _ h3, allReal_of_all a4 _ _ _ _ h4⟩

end Cert.Finite

end
-- ==== Proof.lean ====
/-
  A LoKr-adapted linear layer: out = x (W + s * 2 * (A kron B))^T, for x [128, 8192], W [8192, 8192], A [512, 8192],
  B [16, 1], s [1].

  The kernel never forms the Kronecker product.  Because B has one column, row n of (A kron B) is row n / 16 of A
  scaled by B (n % 16, 0); so the host contracts x with A^T once ([128, 512]), repeats each column 16 times, and hands
  the kernel that array y together with the row b (0, n) = B (n % 16, 0) * (s * 2).  The kernel tiles the output in
  8 column tiles of 1024 and the contraction in 4 steps of 2048: it accumulates x W^T block by block in a scratch
  buffer (reset at the first step) and at the last step stores accumulator + y * b.  The reference forms the dense
  effective weight and contracts once.

  On the extended reals the two agree when every input entry is a real number (the precondition): the kernel's
  result is the factored form, the reference's the dense form, and the two are joined by distributing the
  correction out of the contraction — the one step that needs finiteness.

  The modules: the real law and its lift to the extended reals (RealLaw, Spec); the body's stored values entry by
  entry (PayAt) and what a run of the body leaves (Pieces); where each block sits (Blocks); the partial inner
  products along the contraction axis (LibRowDot, Accum); the two host-computed operands (HostPrefix); the whole
  result array (Final); the reference read at an index (RefDense); the precondition decoded (Finite).
-/
import proofs.«171268_j70806830841898_2_alg».proof.Defs
import proofs.«171268_j70806830841898_2_alg».proof.Proof.Gen.Kernel
import proofs.«171268_j70806830841898_2_alg».proof.Proof.Gen.Kernel.Skeleton
import proofs.«171268_j70806830841898_2_alg».proof.Proof.Gen.Kernel.Launch
import proofs.«171268_j70806830841898_2_alg».proof.Proof.Gen.Kernel.Points
import proofs.«171268_j70806830841898_2_alg».proof.Proof.Gen.Kernel.Frame
import proofs.«171268_j70806830841898_2_alg».proof.Proof.Gen.KernelIdeal
import proofs.«171268_j70806830841898_2_alg».proof.Proof.Gen.KernelIdeal.Skeleton
import proofs.«171268_j70806830841898_2_alg».proof.Proof.Gen.KernelIdeal.Launch
import proofs.«171268_j70806830841898_2_alg».proof.Proof.Gen.KernelIdeal.Points
import proofs.«171268_j70806830841898_2_alg».proof.Proof.Gen.KernelIdeal.Frame
import proofs.«171268_j70806830841898_2_alg».proof.Proof.Gen.ReferenceIdeal
import proofs.«171268_j70806830841898_2_alg».proof.Proof.Gen.Pre_finite_inputs
import proofs.«171268_j70806830841898_2_alg».proof.Proof.Gen.KernelIdeal.Value
import proofs.«171268_j70806830841898_2_alg».proof.Proof.Gen.ReferenceIdeal.Run
import proofs.«171268_j70806830841898_2_alg».proof.Proof.Gen.ReferenceIdeal.Read
import proofs.«171268_j70806830841898_2_alg».proof.Proof.Final
import proofs.«171268_j70806830841898_2_alg».proof.Proof.RefDense
import proofs.«171268_j70806830841898_2_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end at the factored form of the launch arrays: the kernel by its blockwise run, the reference
    because its dense form equals the factored form on arrays of real numbers. -/
theorem algebraic : Cert.algebraic_KernelIdeal_ReferenceIdeal := by
  intro m ρ m' ρ' hpre hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  refine (Cert.ReferenceIdeal.Read.val_main_v13_eq (F := Ideal) _ _ _ _ _).trans ?_
  obtain ⟨h0, h1, h2, h3, h4⟩ := Cert.Finite.allReal_of_pre _ _ _ _ _ (hpre c)
  funext i
  refine (congrArg _ (eq_ix2 i)).trans ?_
  exact (Cert.ReferenceIdeal.RefValue.ref_at _ _ _ _ _ (i 0) (i 1)).trans
    (Cert.LokrSpec.denseAt_eq_factoredAt _ _ _ _ _ h0 h1 h2 h3 h4 (i 0) (i 1))

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
